-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64 : Shape := ⟨2, ![4096, 64]⟩
abbrev S4096x960 : Shape := ⟨2, ![4096, 960]⟩
abbrev S1024 : Shape := ⟨1, ![1024]⟩
abbrev S64x4096 : Shape := ⟨2, ![64, 4096]⟩
abbrev S960x4096 : Shape := ⟨2, ![960, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096x960 : S_.BroadcastsInDim S4096x960 (![] : Fin 0 → Fin S4096x960.rank)
  reducesTo_S4096x960_S_d0_1 : S4096x960.ReducesTo [0, 1] S_
  bcast_S_S1024 : S_.BroadcastsInDim S1024 (![] : Fin 0 → Fin S1024.rank)
  reducesTo_S1024_S_d0 : S1024.ReducesTo [0] S_
  bcast_S_S64x4096 : S_.BroadcastsInDim S64x4096 (![] : Fin 0 → Fin S64x4096.rank)
  reducesTo_S64x4096_S_d0_1 : S64x4096.ReducesTo [0, 1] S_
  bcast_S_S960x4096 : S_.BroadcastsInDim S960x4096 (![] : Fin 0 → Fin S960x4096.rank)
  reducesTo_S960x4096_S_d0_1 : S960x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S64x4096 .f32) (main_arg5 : FVec F S960x4096 .f32) (main_arg6 : FVec F S4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S960x4096 .f32 := Host.absf main_arg5
  let main_cst_8 : FVec F S_ .f32 := constant S_ .f32 0x7F800000#32
  let main_v25 : FVec F S960x4096 .f32 := broadcastInDim S960x4096 ![] bcast_S_S960x4096 main_cst_8
  let main_v26 : IVec S960x4096 1 := cmpf .olt main_v24 main_v25
  let main_c_9 : IVec S_ 1 := constantI S_ 1 1#1
  let main_v27 : IVec S_ 1 := (fun x v => Host.reduce IntOp.andi x v reducesTo_S960x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096x64 .f32) (main_arg2 : FVec F S4096x960 .f32) (main_arg3 : FVec F S1024 .f32) (main_arg4 : FVec F S64x4096 .f32) (main_arg5 : FVec F S960x4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x960 .f32 := Host.absf main_arg2
  let main_cst_2 : FVec F S_ .f32 := constant S_ .f32 0x7F800000#32
  let main_v10 : FVec F S4096x960 .f32 := broadcastInDim S4096x960 ![] bcast_S_S4096x960 main_cst_2
  let main_v11 : IVec S4096x960 1 := cmpf .olt main_v9 main_v10
  let main_c_3 : IVec S_ 1 := constantI S_ 1 1#1
  let main_v12 : IVec S_ 1 := (fun x v => Host.reduce IntOp.andi x v reducesTo_S4096x960_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S4x2048x4096 : Shape := ⟨3, ![4, 2048, 4096]⟩
abbrev S4096x64 : Shape := ⟨2, ![4096, 64]⟩
abbrev S4096x960 : Shape := ⟨2, ![4096, 960]⟩
abbrev S1024 : Shape := ⟨1, ![1024]⟩
abbrev S64x4096 : Shape := ⟨2, ![64, 4096]⟩
abbrev S960x4096 : Shape := ⟨2, ![960, 4096]⟩
abbrev S4096 : Shape := ⟨1, ![4096]⟩
abbrev S8192x4096 : Shape := ⟨2, ![8192, 4096]⟩
abbrev S1024x4096 : Shape := ⟨2, ![1024, 4096]⟩
abbrev S4096x1024 : Shape := ⟨2, ![4096, 1024]⟩
abbrev S1x1024 : Shape := ⟨2, ![1, 1024]⟩
abbrev S256x4096 : Shape := ⟨2, ![256, 4096]⟩
abbrev S256x1024 : Shape := ⟨2, ![256, 1024]⟩
abbrev S1x4096 : Shape := ⟨2, ![1, 4096]⟩

abbrev nBuf : Space → Nat
  | .hbm => 17
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S4096x960, .f32⟩
  | .hbm, ⟨3, _⟩ => ⟨S1024, .f32⟩
  | .hbm, ⟨4, _⟩ => ⟨S64x4096, .f32⟩
  | .hbm, ⟨5, _⟩ => ⟨S960x4096, .f32⟩
  | .hbm, ⟨6, _⟩ => ⟨S4096, .f32⟩
  | .hbm, ⟨7, _⟩ => ⟨S8192x4096, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S8192x4096, .f32⟩
  | .hbm, ⟨16, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S4096x1024, .bf16⟩
  | .local _ .vmem, ⟨4, _⟩ => ⟨S4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  concatenates_S64x4096_S960x4096_S1024x4096_d0 : Shape.Concatenates [S64x4096, S960x4096] S1024x4096 0
  bitsLt_bf16_f32 : FTy.bits .bf16 < FTy.bits .f32
  concatenates_S4096x64_S4096x960_S4096x1024_d1 : Shape.Concatenates [S4096x64, S4096x960] S4096x1024 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  shapeCasts_S8192x4096_S4x2048x4096 : S8192x4096.ShapeCasts S4x2048x4096
  dot_S256x4096_S1024x4096_S256x1024_1_1_0_0_n_n_wf : DotDims.WF S256x4096 S1024x4096 S256x1024 [1] [1] [0] [0] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x64 : Shape := ⟨2, ![4096, 64]⟩
abbrev S4096x960 : Shape := ⟨2, ![4096, 960]⟩
abbrev S1024 : Shape := ⟨1, ![1024]⟩
abbrev S64x4096 : Shape := ⟨2, ![64, 4096]⟩
abbrev S960x4096 : Shape := ⟨2, ![960, 4096]⟩
abbrev S4096 : Shape := ⟨1, ![4096]⟩
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S4096x960, .f32⟩
  | .hbm, ⟨3, _⟩ => ⟨S1024, .f32⟩
  | .hbm, ⟨4, _⟩ => ⟨S64x4096, .f32⟩
  | .hbm, ⟨5, _⟩ => ⟨S960x4096, .f32⟩
  | .hbm, ⟨6, _⟩ => ⟨S4096, .f32⟩
  | .hbm, ⟨7, _⟩ => ⟨S4096x1024, .f32⟩
  | .hbm, ⟨8, _⟩ => ⟨S1024x4096, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  concatenates_S4096x64_S4096x960_S4096x1024_d1 : Shape.Concatenates [S4096x64, S4096x960] S4096x1024 1
  concatenates_S64x4096_S960x4096_S1024x4096_d0 : Shape.Concatenates [S64x4096, S960x4096] S1024x4096 0
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x1024_S1024x4096_S4096x4096_1_0_0_1_n_n_wf : DotDims.WF S4096x1024 S1024x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibFactoredContract.lean ====
/-
  Two ways to contract a row with a low-rank weight, on the extended reals.

  For a row `a` over `ι`, a factor `v` over `κ × ι` and a weight `w` over `κ`, all of whose entries are REAL
  numbers (no `±∞`), projecting the row first and then weighting,

      ∑ r, (∑ i, a i * v r i) * w r,

  equals contracting the row with the materialised weight `∑ r, w r * v r i`,

      ∑ i, a i * ∑ r, w r * v r i.

  On the reals this is distributivity and an exchange of the two finite sums. On the extended reals distributivity
  fails at the infinities, so the statement asks that every entry be real; the proof names the real witnesses, moves
  the coercion `ℝ → EReal` outside the sums and products, and is then the real identity.
-/
import Mathlib.Data.EReal.Basic
import Mathlib.Data.EReal.Operations
import Mathlib.Algebra.BigOperators.Ring.Finset
import Mathlib.Algebra.BigOperators.Group.Finset.Sigma
import Mathlib.Tactic.Ring

namespace Cert.Lib

open Finset

/-- An extended real that is a real number: neither `+∞` nor `-∞`. -/
def IsRealVal (x : EReal) : Prop := x ≠ ⊤ ∧ x ≠ ⊥

theorem IsRealVal.exists_coe {x : EReal} (h : IsRealVal x) : ∃ r : ℝ, x = (r : EReal) :=
  ⟨x.toReal, (EReal.coe_toReal h.1 h.2).symm⟩

theorem isRealVal_coe (r : ℝ) : IsRealVal (r : EReal) := ⟨EReal.coe_ne_top r, EReal.coe_ne_bot r⟩

/-- The product of two real values is a real value. -/
theorem IsRealVal.mul {x y : EReal} (hx : IsRealVal x) (hy : IsRealVal y) : IsRealVal (x * y) := by
  obtain ⟨a, rfl⟩ := hx.exists_coe
  obtain ⟨b, rfl⟩ := hy.exists_coe
  rw [← EReal.coe_mul]; exact isRealVal_coe _

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Projecting a row through the factor `v` and then weighting by `w` is contracting it with the materialised
    weight, when every entry is real. -/
theorem factored_contract {ι κ : Type*} [Fintype ι] [Fintype κ] (a : ι → EReal) (v : κ → ι → EReal) (w : κ → EReal)
    (ha : ∀ i, IsRealVal (a i)) (hv : ∀ r i, IsRealVal (v r i)) (hw : ∀ r, IsRealVal (w r)) :
    ∑ r, (∑ i, a i * v r i) * w r = ∑ i, a i * ∑ r, w r * v r i := by
  choose a' ha' using fun i => (ha i).exists_coe
  choose v' hv' using fun r i => (hv r i).exists_coe
  choose w' hw' using fun r => (hw r).exists_coe
  simp only [ha', hv', hw', ← EReal.coe_mul, ← coe_finset_sum]
  congr 1
  simp only [Finset.sum_mul, Finset.mul_sum]
  rw [Finset.sum_comm]
  refine Finset.sum_congr rfl fun i _ => Finset.sum_congr rfl fun r _ => ?_
  ring

end Cert.Lib
-- ==== Proof.SivaSpec.lean ====
/-
  The low-rank linear layer as ONE function of its operands, index by index, in its two spellings.

  With `u : [4096, 1024]` the left factor, `s : [1024]` the diagonal, `v : [1024, 4096]` the right factor,
  `β : [4096]` the bias and `x : [4, 2048, 4096]` the activations:

  * `linear` materialises the weight `W o k = ∑ r, (u o r * s r) * v r k` and contracts the activations with it:
    `out b q o = ∑ k, x b q k * W o k + β o`;
  * `factoredRows` works on the activations flattened to rows `[8192, 4096]` and on the scaled left factor
    `w o r` (which is `u o r * s r`): it projects a row through `v` first, `y r = ∑ k, x p k * v r k`, and then weights,
    `out p o = ∑ r, y r * w o r + β o`.

  Row `p` of the second, when it holds the activations of entry `(b, q)`, is entry `(b, q)` of the first when every
  entry of `x`, `u`, `s`, `v` is a real number: distributivity and an exchange of the two finite sums
  (`Cert.Lib.factored_contract`). The bias takes no part in it and may be any extended real.
-/
import Idealize.ShloMosaic.PureOps.Ideal
import Idealize.ShloMosaic.Lib.ValueIdx
import proofs.«146519_j53523882443032_1_alg».proof.Proof.LibFactoredContract

noncomputable section

namespace Cert.Siva

open Idealize.ShloMosaic Idealize.ShloMosaic.ValueIdx Cert.Lib

abbrev SX : Shape := ⟨3, ![4, 2048, 4096]⟩
abbrev SRows : Shape := ⟨2, ![8192, 4096]⟩
abbrev SU : Shape := ⟨2, ![4096, 1024]⟩
abbrev SV : Shape := ⟨2, ![1024, 4096]⟩
abbrev SS : Shape := ⟨1, ![1024]⟩
abbrev SB : Shape := ⟨1, ![4096]⟩

/-- Entry `(b, q, o)` of the layer with the weight materialised:
    `∑ k, x b q k * (∑ r, (u o r * s r) * v r k) + β o`. -/
def linearAt (x : SX.Idx → EReal) (u : SU.Idx → EReal) (s : SS.Idx → EReal) (v : SV.Idx → EReal) (β : SB.Idx → EReal)
    (b : Fin 4) (q : Fin 2048) (o : Fin 4096) : EReal :=
  (∑ k : Fin 4096, x (ix3 b q k) * ∑ r : Fin 1024, (u (ix2 o r) * s (ix1 r)) * v (ix2 r k)) + β (ix1 o)

/-- The layer with the weight materialised, as an array. -/
def linear (x : SX.Idx → EReal) (u : SU.Idx → EReal) (s : SS.Idx → EReal) (v : SV.Idx → EReal) (β : SB.Idx → EReal) :
    SX.Idx → EReal := fun i => linearAt x u s v β (i 0) (i 1) (i 2)

/-- Entry `(p, o)` of the layer on flattened rows, projected through `v` first and then weighted by the scaled
    left factor `w`: `∑ r, (∑ k, x p k * v r k) * w o r + β o`. -/
def factoredRowAt (xf : SRows.Idx → EReal) (w : SU.Idx → EReal) (v : SV.Idx → EReal) (β : SB.Idx → EReal)
    (p : Fin 8192) (o : Fin 4096) : EReal :=
  (∑ r : Fin 1024, (∑ k : Fin 4096, xf (ix2 p k) * v (ix2 r k)) * w (ix2 o r)) + β (ix1 o)

/-- The factored layer on flattened rows, as an array. -/
def factoredRows (xf : SRows.Idx → EReal) (w : SU.Idx → EReal) (v : SV.Idx → EReal) (β : SB.Idx → EReal) :
    SRows.Idx → EReal := fun j => factoredRowAt xf w v β (j 0) (j 1)

/-- A row of the factored form whose activations are row `(b, q)` of `x` and whose scaled left factor is
    `u o r * s r` is entry `(b, q)` of the materialised form, when the activations, both factors and the diagonal hold
    real numbers. -/
theorem factoredRowAt_eq_linearAt (x : SX.Idx → EReal) (xf : SRows.Idx → EReal) (u w : SU.Idx → EReal) (s : SS.Idx → EReal)
    (v : SV.Idx → EReal) (β : SB.Idx → EReal)
    (hx : ∀ i, IsRealVal (x i)) (hu : ∀ i, IsRealVal (u i)) (hs : ∀ i, IsRealVal (s i)) (hv : ∀ i, IsRealVal (v i))
    (b : Fin 4) (q : Fin 2048) (o : Fin 4096) (p : Fin 8192) (hp : ∀ k : Fin 4096, xf (ix2 p k) = x (ix3 b q k))
    (hw : ∀ r : Fin 1024, w (ix2 o r) = u (ix2 o r) * s (ix1 r)) :
    factoredRowAt xf w v β p o = linearAt x u s v β b q o := by
  unfold factoredRowAt linearAt
  simp only [hp, hw]
  exact congrArg (· + β (ix1 o))
    (factored_contract (fun k : Fin 4096 => x (ix3 b q k)) (fun (r : Fin 1024) (k : Fin 4096) => v (ix2 r k))
      (fun r : Fin 1024 => u (ix2 o r) * s (ix1 r)) (fun k => hx _) (fun r k => hv _) (fun r => (hu _).mul (hs _)))

end Cert.Siva

end
-- ==== Proof.SivaReference.lean ====
/-
  The reference program computes `Cert.Siva.linear`.

  Its last stage is the sum of two arrays: the activations contracted (over their last axis) with the materialised
  weight, and the bias repeated over the batch and sequence axes. The materialised weight is the product of the
  scaled left factor (the concatenated left factor times the diagonal repeated down the rows) with the concatenated
  right factor. Read one operation at a time at an index, with the two concatenations kept as the arrays `u` and `v`,
  this is `∑ k, x b q k * (∑ r, (u o r * s r) * v r k) + β o`.
-/
import proofs.«146519_j53523882443032_1_alg».proof.Proof.Gen.ReferenceIdeal.Read
import proofs.«146519_j53523882443032_1_alg».proof.Proof.SivaSpec

noncomputable section

namespace Cert.Siva

open Idealize.ShloMosaic Idealize.ShloMosaic.ValueIdx Cert.ReferenceIdeal Cert.ReferenceIdeal.Read

theorem reference_eq_linear (x0 : (⟨S4x2048x4096, .f32⟩ : BufTy).Contents (Elt Ideal)) (x1 : (⟨S4096x64, .f32⟩ : BufTy).Contents (Elt Ideal))
    (x2 : (⟨S4096x960, .f32⟩ : BufTy).Contents (Elt Ideal)) (x3 : (⟨S1024, .f32⟩ : BufTy).Contents (Elt Ideal))
    (x4 : (⟨S64x4096, .f32⟩ : BufTy).Contents (Elt Ideal)) (x5 : (⟨S960x4096, .f32⟩ : BufTy).Contents (Elt Ideal))
    (x6 : (⟨S4096, .f32⟩ : BufTy).Contents (Elt Ideal)) :
    val_main_v9 (F := Ideal) x0 x1 x2 x3 x4 x5 x6
      = linear x0 (val_main_v0 (F := Ideal) x1 x2) x3 (val_main_v1 (F := Ideal) x4 x5) x6 := by
  funext i
  obtain ⟨b, q, o, rfl⟩ : ∃ (b : Fin 4) (q : Fin 2048) (o : Fin 4096), i = ix3 b q o := ⟨i 0, i 1, i 2, eq_ix3 i⟩
  have e6l : ∀ k : Fin 4096, lidx_main_v6 (ix3 b q o) k = ix3 b q k := fun k =>
    funext fun a => by match a with | ⟨0, _⟩ => rfl | ⟨1, _⟩ => rfl | ⟨2, _⟩ => rfl
  have e5l : ∀ (k : Fin 4096) (r : Fin 1024), lidx_main_v5 (ridx_main_v6 (ix3 b q o) k) r = ix2 o r := fun k r =>
    funext fun a => by match a with | ⟨0, _⟩ => rfl | ⟨1, _⟩ => rfl
  have e5r : ∀ (k : Fin 4096) (r : Fin 1024), ridx_main_v5 (ridx_main_v6 (ix3 b q o) k) r = ix2 r k := fun k r =>
    funext fun a => by match a with | ⟨0, _⟩ => rfl | ⟨1, _⟩ => rfl
  have e3 : ∀ r : Fin 1024, idx_main_v2 (idx_main_v3 (ix2 o r)) = ix1 r := fun r =>
    funext fun a => by match a with | ⟨0, _⟩ => rfl
  have e8 : idx_main_v7 (idx_main_v8 (ix3 b q o)) = ix1 o :=
    funext fun a => by match a with | ⟨0, _⟩ => rfl
  have e4 : ∀ r : Fin 1024, val_main_v4 (F := Ideal) x1 x2 x3 (ix2 o r)
      = val_main_v0 (F := Ideal) x1 x2 (ix2 o r) * x3 (ix1 r) := fun r => by
    rw [val_main_v4_apply, val_main_v3_apply, val_main_v2_apply, e3]; rfl
  rw [val_main_v9_apply, val_main_v6_apply, val_main_v8_apply, val_main_v7_apply]
  simp only [val_main_v5_apply, e6l, e5l, e5r, e4, e8, Ideal.addf_def]
  show _ = linearAt x0 (val_main_v0 (F := Ideal) x1 x2) x3 (val_main_v1 (F := Ideal) x4 x5) x6 b q o
  unfold linearAt
  rfl

end Cert.Siva

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.SivaBody.lean ====
/-
  What the kernel body stores, entry by entry.

  At a grid point the body holds a block `x0` of 256 activation rows `[256, 4096]`, the whole right factor
  `x1 : [1024, 4096]`, the whole scaled left factor `x2 : [4096, 1024]` and the bias `x3 : [4096]`. It multiplies the
  rows by the right factor given by rows (contracting the 4096 columns of both), multiplies the result by the scaled
  left factor given by rows (contracting the 1024 columns of both), and adds the bias to every row. Over the extended
  reals the changes of float format are the identity and each matrix product into a zero accumulator is its finite sum,
  so entry `(p, q)` of what is stored is

      ∑ r, (∑ k, x0 p k * x1 r k) * x2 q r  +  x3 q.
-/
import proofs.«146519_j53523882443032_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«146519_j53523882443032_1_alg».proof.Proof.LibRowsDot

noncomputable section

namespace Cert.Siva

open Idealize.ShloMosaic Idealize.ShloMosaic.ValueIdx Cert.KernelIdeal Cert.KernelIdeal.Gen Cert.Lib

/-- The first product's dimension numbers are rows-by-rows over 4096 columns. -/
theorem dims_project : dot_S256x4096_S1024x4096_S256x1024_1_1_0_0_n_n = DotDims.transposedRhs 256 4096 1024 := rfl

/-- The second product's dimension numbers are rows-by-rows over 1024 columns. -/
theorem dims_weight : dot_S256x1024_S4096x1024_S256x4096_1_1_0_0_n_n = DotDims.transposedRhs 256 1024 4096 := rfl

/-- The bias, viewed as one row and repeated down the 256 rows, reads the bias at the column. -/
theorem bias_rows_apply (x3 : Vec Ideal S4096 .f32) (p : Fin 256) (q : Fin 4096) :
    broadcastTo S256x4096 (shapeCast S1x4096 x3 shapeCasts_S4096_S1x4096) broadcasts_S1x4096_S256x4096 (ix2 p q)
      = x3 (ix1 q) :=
  (broadcastTo_1b_ab_apply _ broadcasts_S1x4096_S256x4096 p q).trans
    (shapeCast_a_1a_apply x3 shapeCasts_S4096_S1x4096 0 q)

/-- Entry `(p, q)` of the stored block: the row projected through the right factor, weighted by the scaled left
    factor's row `q`, plus the bias at `q`. -/
theorem body_apply (x0 : Vec Ideal S256x4096 .f32) (x1 : Vec Ideal S1024x4096 .bf16) (x2 : Vec Ideal S4096x1024 .bf16)
    (x3 : Vec Ideal S4096 .f32) (p : Fin 256) (q : Fin 4096) :
    k0_pay1 (F := Ideal) x0 x1 x2 x3 (ix2 p q)
      = (∑ r : Fin 1024, (∑ k : Fin 4096, x0 (ix2 p k) * x1 (ix2 r k)) * x2 (ix2 q r)) + x3 (ix1 q) := by
  unfold k0_pay1
  simp only [shapeCast_self]
  rw [dims_project, dims_weight]
  refine (addf_apply _ _ _).trans ?_
  rw [bias_rows_apply]
  refine congrArg (· + x3 (ix1 q)) ?_
  refine (matmul_rowsDot_zero_apply (φ₁ := .bf16) (φ₂ := .bf16) none _ x2 p q).trans ?_
  refine Finset.sum_congr rfl fun r _ => ?_
  refine congrArg (· * x2 (ix2 q r)) ?_
  exact matmul_rowsDot_zero_apply (φ₁ := .bf16) (φ₂ := .bf16) none (truncf .bf16 x0 bitsLt_bf16_f32) x1 p r

end Cert.Siva

end
-- ==== Proof.SivaBlocks.lean ====
/-
  From the blocks the grid points write back to the whole output array of the region.

  The region's grid has 32 points. Point `t` stages rows `256 t … 256 t + 255` of the flattened activations, the whole
  right factor, the whole scaled left factor and the whole bias, and writes back rows `256 t … 256 t + 255` of the
  output. What it writes at `(p, q)` of its block is the body's value there, which is entry `(256 t + p, q)` of
  `Cert.Siva.factoredRows` of the four arrays the region finds. The 32 blocks tile the output's 8192 rows (row `R` is
  in the block of point `R / 256`), so after the region the output array is `factoredRows` of those arrays.
-/
import proofs.«146519_j53523882443032_1_alg».proof.Proof.Gen.KernelIdeal.Frame
import Idealize.ShloMosaic.Lib.Pipeline.Value
import Idealize.ShloMosaic.Lib.ValueIdx
import proofs.«146519_j53523882443032_1_alg».proof.Proof.SivaSpec
import proofs.«146519_j53523882443032_1_alg».proof.Proof.SivaBody

set_option maxRecDepth 16384

noncomputable section

namespace Cert.Siva

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- One entry of a block the body stores, against the whole arrays: if row `y 0` of the activations' block is row
    `i 0` of the flattened activations, and the three other blocks are the whole arrays, then the body's value at
    `y` is entry `i` of the factored layer, `i` being in `y`'s column. -/
theorem block_entry (x0 : Vec Ideal S256x4096 .f32) (x1 : Vec Ideal S1024x4096 .bf16) (x2 : Vec Ideal S4096x1024 .bf16)
    (x3 : Vec Ideal S4096 .f32) (xf : SRows.Idx → EReal) (w : SU.Idx → EReal) (v : SV.Idx → EReal) (β : SB.Idx → EReal)
    (y : S256x4096.Idx) (i : S8192x4096.Idx) (hcol : (i 1).val = (y 1).val)
    (h0 : ∀ (y' : S256x4096.Idx) (i' : S8192x4096.Idx), (y' 0).val = (y 0).val → (i' 0).val = (i 0).val →
      (i' 1).val = (y' 1).val → x0 y' = xf i')
    (h1 : ∀ z, x1 z = v z) (h2 : ∀ z, x2 z = w z) (h3 : ∀ z, x3 z = β z) :
    k0_pay1 (F := Ideal) x0 x1 x2 x3 y = factoredRows xf w v β i := by
  obtain ⟨p, q, rfl⟩ : ∃ (p : Fin 256) (q : Fin 4096), y = ix2 p q := ⟨y 0, y 1, eq_ix2 y⟩
  obtain ⟨P, Q, rfl⟩ : ∃ (P : Fin 8192) (Q : Fin 4096), i = ix2 P Q := ⟨i 0, i 1, eq_ix2 i⟩
  obtain rfl : Q = q := Fin.ext hcol
  have h0' : ∀ k : Fin 4096, x0 (ix2 p k) = xf (ix2 P k) := fun k => h0 (ix2 p k) (ix2 P k) rfl rfl rfl
  rw [body_apply]
  show _ = factoredRowAt xf w v β P Q
  unfold factoredRowAt
  simp only [h0', h1, h2, h3]

/-- The printed index maps over the grid: the activations' and the output's blocks move down one block of rows per
    point; the two factors and the bias stay at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Every block of rows is some point's. -/
theorem block_onto : ∀ q0 : Fin 32, ∃ t : Fin cfg0.N, win0_4.index t = ![q0.val, 0] :=
  (by decide +kernel : ∀ q0 : Fin 32, ∃ t : Fin grid0.N, win0_4.index t = ![q0.val, 0])

/-- The region's output as one function of the arrays the region finds. -/
abbrev regionOut (c : Dev nD) : S8192x4096.Idx → EReal :=
  factoredRows (V m c main_v0 : S8192x4096.Idx → EReal) (V m c main_v7 : S4096x1024.Idx → EReal)
    (V m c main_v2 : S1024x4096.Idx → EReal) (V m c main_arg6 : S4096.Idx → EReal)

/-- What point `t` writes back is block `t` of `regionOut`. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero zeros2]
  simp only [View.ld_unit_zero (S := S256x4096) zeros2, View.ld_unit_zero (S := S1024x4096) zeros2,
    View.ld_unit_zero (S := S4096x1024) zeros2, View.ld_unit_zero (S := S4096) zeros1]
  obtain ⟨e00, e01, e10, e11, e20, e21, e30, e40, e41⟩ := block_index t
  funext j
  rw [View.read_apply]
  refine block_entry (iblk m c 0 t) (iblk m c 1 t) (iblk m c 2 t) (iblk m c 3 t)
    (V m c main_v0 : S8192x4096.Idx → EReal) (V m c main_v7 : S4096x1024.Idx → EReal)
    (V m c main_v2 : S1024x4096.Idx → EReal) (V m c main_arg6 : S4096.Idx → EReal)
    ((cfg0.win 4).xinj (grid0.coords t) j) (((cfg0.win 4).blk t).view.emb j) ?_ ?_ ?_ ?_ ?_
  · show win0_4.index t (1 : Fin 2) * 4096 + 1 * (j 1).val = (j 1).val
    omega
  · intro y' i' hy hi hc
    have hi' : (i' 0).val = win0_4.index t (0 : Fin 2) * 256 + 1 * (j 0).val := hi
    have hy' : (y' 0).val = (j 0).val := hy
    unfold iblk
    rw [View.read_apply]
    refine congrArg (V m c main_v0 : S8192x4096.Idx → EReal) (funext fun a => Fin.ext ?_)
    match a with
    | ⟨0, _⟩ => show win0_0.index t (0 : Fin 2) * 256 + 1 * (y' 0).val = (i' 0).val; omega
    | ⟨1, _⟩ => show win0_0.index t (1 : Fin 2) * 4096 + 1 * (y' 1).val = (i' 1).val; omega
  · intro z
    unfold iblk
    rw [View.read_apply]
    refine congrArg (V m c main_v2 : S1024x4096.Idx → EReal) (funext fun a => Fin.ext ?_)
    match a with
    | ⟨0, _⟩ => show win0_1.index t (0 : Fin 2) * 1024 + 1 * (z 0).val = (z 0).val; omega
    | ⟨1, _⟩ => show win0_1.index t (1 : Fin 2) * 4096 + 1 * (z 1).val = (z 1).val; omega
  · intro z
    unfold iblk
    rw [View.read_apply]
    refine congrArg (V m c main_v7 : S4096x1024.Idx → EReal) (funext fun a => Fin.ext ?_)
    match a with
    | ⟨0, _⟩ => show win0_2.index t (0 : Fin 2) * 4096 + 1 * (z 0).val = (z 0).val; omega
    | ⟨1, _⟩ => show win0_2.index t (1 : Fin 2) * 1024 + 1 * (z 1).val = (z 1).val; omega
  · intro z
    unfold iblk
    rw [View.read_apply]
    refine congrArg (V m c main_arg6 : S4096.Idx → EReal) (funext fun a => Fin.ext ?_)
    match a with
    | ⟨0, _⟩ => show win0_3.index t (0 : Fin 1) * 4096 + 1 * (z 0).val = (z 0).val; omega

/-- An index of the output array is in point `t`'s block iff each coordinate is in the block's range on its axis. -/
theorem mem_block (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v8).slice (win0_4.rect t)).set ↔ _
  rw [View.set_slice_whole, Rect.mem_set_unit]
  exact Iff.rfl

/-- Every index of the output array is in some point's block: row `R` in the block of point `R / 256`. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 4096 ≤ (i 1).val ∧ (i 1).val < win0_4.index t (1 : Fin 2) * 4096 + 4096
    omega

/-- The output array after the region is `regionOut`. -/
theorem region_final (c : Dev nD) : (dats m 0 c).arrAt 4 cfg0.N = regionOut m c :=
  (dats m 0 c).arrAt_eq_of_cover 4 (regionOut m c) (fun t _ => flushed_eq m c t) (covered)

end Cert.Siva

end
-- ==== Proof.SivaEntry.lean ====
/-
  What the region finds in the arrays its windows stage.

  Before the region the host reshapes the activations `[4, 2048, 4096]` to rows `[8192, 4096]`, concatenates the two
  halves of the right factor along the rows, concatenates the two halves of the left factor along the columns and
  scales column `r` of it by the diagonal's entry `r` (the diagonal viewed as one row and repeated down the rows);
  the two factors also change float format, which is the identity on the extended reals. The bias is staged as
  launched.
-/
import proofs.«146519_j53523882443032_1_alg».proof.Proof.Gen.KernelIdeal.Frame
import Idealize.ShloMosaic.Lib.StableHlo.Run
import Idealize.ShloMosaic.Lib.Pipeline.Value
import Idealize.ShloMosaic.Lib.ValueIdx

noncomputable section

namespace Cert.Siva

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The left factor: its two halves side by side. -/
abbrev leftFactor (c : Dev nD) : S4096x1024.Idx → EReal :=
  concatenate S4096x1024 1 [⟨S4096x64, m ((c : Thread nD τ).loc main_arg1)⟩, ⟨S4096x960, m ((c : Thread nD τ).loc main_arg2)⟩]
    concatenates_S4096x64_S4096x960_S4096x1024_d1

/-- The right factor: its two halves one above the other. -/
abbrev rightFactor (c : Dev nD) : S1024x4096.Idx → EReal :=
  concatenate S1024x4096 0 [⟨S64x4096, m ((c : Thread nD τ).loc main_arg4)⟩, ⟨S960x4096, m ((c : Thread nD τ).loc main_arg5)⟩]
    concatenates_S64x4096_S960x4096_S1024x4096_d0

/-- The activations' window stages the activations reshaped to rows. -/
theorem entry_rows (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The right factor's window stages the concatenated right factor. -/
theorem entry_right (c : Dev nD) : (V m c main_v2 : S1024x4096.Idx → EReal) = rightFactor m c := by
  show StableHlo.after hostOps0 (fun b => m (c, b)) (Proc.devRef .tc main_v2) = _
  after_results
  rfl

/-- The left factor's window stages the concatenated left factor times the diagonal repeated down the rows. -/
theorem entry_left (c : Dev nD) : (V m c main_v7 : S4096x1024.Idx → EReal)
    = (mulf (F := Ideal) (φ := .f32) (leftFactor m c)
        (broadcastInDim S4096x1024 ![0, 1] bcast_S1x1024_S4096x1024_0_1
          (broadcastInDim S1x1024 ![1] bcast_S1024_S1x1024_1 (m ((c : Thread nD τ).loc main_arg3)))) : S4096x1024.Idx → EReal) := by
  show StableHlo.after hostOps0 (fun b => m (c, b)) (Proc.devRef .tc main_v7) = _
  after_results
  rfl

/-- The diagonal viewed as one row and repeated down the rows reads the diagonal at the column. -/
theorem diag_rows_apply (s : S1024.Idx → EReal) (o : Fin 4096) (r : Fin 1024) :
    broadcastInDim S4096x1024 ![0, 1] bcast_S1x1024_S4096x1024_0_1 (broadcastInDim S1x1024 ![1] bcast_S1024_S1x1024_1 s) (ix2 o r)
      = s (ix1 r) :=
  (broadcastInDim_apply _ bcast_S1x1024_S4096x1024_0_1 _ (ix2 o r) (ix2 (0 : Fin 1) r) (fun a => match a with
    | ⟨0, _⟩ => by show 0 = if (1 : Nat) = 1 then 0 else o.val; rw [if_pos rfl]
    | ⟨1, _⟩ => by show r.val = if (1024 : Nat) = 1 then 0 else r.val; rw [if_neg (by decide)])).trans
  (broadcastInDim_apply _ bcast_S1024_S1x1024_1 s (ix2 (0 : Fin 1) r) (ix1 r) (fun a => match a with
    | ⟨0, _⟩ => by show r.val = if (1024 : Nat) = 1 then 0 else r.val; rw [if_neg (by decide)]))

/-- Entry `(o, r)` of the scaled left factor the region finds is the left factor's entry times the diagonal's. -/
theorem entry_left_apply (c : Dev nD) (o : Fin 4096) (r : Fin 1024) :
    (V m c main_v7 : S4096x1024.Idx → EReal) (ix2 o r)
      = leftFactor m c (ix2 o r) * (m ((c : Thread nD τ).loc main_arg3) : S1024.Idx → EReal) (ix1 r) := by
  rw [entry_left]
  exact congrArg (leftFactor m c (ix2 o r) * ·) (diag_rows_apply _ o r)

/-- Row `2048 b + q` of the reshaped activations is row `(b, q)` of the activations. -/
theorem entry_rows_apply (c : Dev nD) (b : Fin 4) (q : Fin 2048) (P : Fin 8192) (hP : P.val = b.val * 2048 + q.val) (k : Fin 4096) :
    (V m c main_v0 : S8192x4096.Idx → EReal) (ix2 P k)
      = (m ((c : Thread nD τ).loc main_arg0) : S4x2048x4096.Idx → EReal) (ix3 b q k) := by
  rw [entry_rows]
  exact shapeCast_apply _ shapeCasts_S4x2048x4096_S8192x4096 (ix2 P k) (ix3 b q k) (by
    rw [Shape.rowMajor_val_three, Shape.rowMajor_val_two]
    show (b.val * 2048 + q.val) * 4096 + k.val = P.val * 4096 + k.val
    rw [hP])

end Cert.Siva

end
-- ==== Proof.LibFiniteDecode.lean ====
/-
  Reading "every entry is finite" back out of a printed precondition, and carrying it through a concatenation.

  A precondition `jnp.all(jnp.abs(x) < inf)` prints as a reduction by `and`, from the constant `1`, of the
  comparison `|x| < 0x7F800000` taken entry by entry; over the extended reals the pattern `0x7F800000` is `+∞` and
  `|x|` is `max x (-x)`. If the reduction came out `1` then every comparison did, and `max x (-x) < +∞` says that
  `x` is neither `+∞` nor `-∞`: a real number.

  A concatenation reads every one of its entries from one of its pieces, so any property every entry of every piece has
  (being real, in particular) every entry of the concatenation has.
-/
import Idealize.ShloMosaic.Lib.ReduceAll
import Idealize.ShloMosaic.Lib.ValueIdx
import Idealize.ShloMosaic.PureOps.Ideal.Laws
import proofs.«146519_j53523882443032_1_alg».proof.Proof.LibFactoredContract

noncomputable section

namespace Cert.Lib

open Idealize.ShloMosaic Idealize.ShloMosaic.ValueIdx

/-- The scalar shape: what `jnp.all` reduces into. -/
abbrev S0 : Shape := ⟨0, ![]⟩

/-- It has one index. -/
instance : Subsingleton S0.Idx := ⟨fun _ _ => funext fun d => d.elim0⟩

/-- The f32 pattern `0x7F800000` denotes `+∞`. -/
theorem ofBits_inf_f32 : Ideal.ofBits .f32 0x7F800000#32 = ⊤ := by simp [Ideal.ofBits, Ideal.ieee]

/-- An extended real whose absolute value `max x (-x)` compares below `+∞` is a real number. -/
theorem isRealVal_of_abs_lt_top (x : EReal) (h : Ideal.cmp .olt (max x (-x)) ⊤ = 1#1) : IsRealVal x := by
  have h' : max x (-x) < ⊤ := by
    by_contra hn
    simp [Ideal.cmp, hn] at h
  constructor
  · rintro rfl; simp at h'
  · rintro rfl; simp at h'

/-- `jnp.all(jnp.abs(x) < inf)` read back: if the printed reduction is `1`, every entry of `x` is a real number. -/
theorem isRealVal_of_all_abs_lt_inf {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi
        (cmpf .olt (Host.absf x) (broadcastInDim s ![] hb (constant (F := Ideal) S0 .f32 0x7F800000#32)))
        (constantI S0 1 1#1) hr hu ix0 = 1#1)
    (i : s.Idx) : IsRealVal (x i) := by
  have h := Host.reduce_andi_all _ _ hr hu ix0 e i
  refine isRealVal_of_abs_lt_top (x i) ?_
  rw [← ofBits_inf_f32]
  exact h

/-- Whatever holds of every entry of every piece holds of every entry of their concatenation. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Cert.Lib

end
-- ==== Proof.SivaRealInputs.lean ====
/-
  The precondition, read back: every float input holds real numbers.

  The printed precondition is the conjunction, input by input, of `jnp.all(jnp.abs(input) < inf)`. Its value is one
  bit; that bit being `1` splits into the seven conjuncts (an `and` of bits is `1` only when both are), and each
  conjunct says that every entry of its input is a real number (`Cert.Lib.isRealVal_of_all_abs_lt_inf`).
-/
import proofs.«146519_j53523882443032_1_alg».proof.Pre_finite_inputs
import proofs.«146519_j53523882443032_1_alg».proof.Proof.LibFiniteDecode

noncomputable section

namespace Cert.Siva

open Idealize.ShloMosaic Idealize.ShloMosaic.ValueIdx Cert.Lib Cert.Pre_finite_inputs

variable [Cert.Pre_finite_inputs.Facts]
open Cert.Pre_finite_inputs.Facts

/-- If the precondition's bit is `1`, every entry of each of the seven inputs is a real number. -/
theorem inputs_real (a0 : FVec Ideal S4x2048x4096 .f32) (a1 : FVec Ideal S4096x64 .f32) (a2 : FVec Ideal S4096x960 .f32)
    (a3 : FVec Ideal S1024 .f32) (a4 : FVec Ideal S64x4096 .f32) (a5 : FVec Ideal S960x4096 .f32) (a6 : FVec Ideal S4096 .f32)
    (h : fn (F := Ideal) a0 a1 a2 a3 a4 a5 a6 = fun _ => 1#1) :
    (∀ i, IsRealVal (a0 i)) ∧ (∀ i, IsRealVal (a1 i)) ∧ (∀ i, IsRealVal (a2 i)) ∧ (∀ i, IsRealVal (a3 i))
      ∧ (∀ i, IsRealVal (a4 i)) ∧ (∀ i, IsRealVal (a5 i)) ∧ (∀ i, IsRealVal (a6 i)) := by
  have h0 := congrFun h ix0
  dsimp only [fn, fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨isRealVal_of_all_abs_lt_inf a0 _ _ _ h3, isRealVal_of_all_abs_lt_inf a1 _ _ _ h7,
    isRealVal_of_all_abs_lt_inf a2 _ _ _ h12, isRealVal_of_all_abs_lt_inf a3 _ _ _ h17,
    isRealVal_of_all_abs_lt_inf a4 _ _ _ h22, isRealVal_of_all_abs_lt_inf a5 _ _ _ h27,
    isRealVal_of_all_abs_lt_inf a6 _ _ _ h32⟩

end Cert.Siva

end
-- ==== Proof.SivaKernelRun.lean ====
/-
  The kernel program's result: `Cert.Siva.linear` of its arguments, when they hold real numbers.

  After the region the host reshapes the output rows `[8192, 4096]` back to `[4, 2048, 4096]`: entry `(b, q, o)` of the
  result is entry `(2048 b + q, o)` of the region's output, which is the factored layer on row `2048 b + q` of the
  flattened activations — row `(b, q)` of the activations — with the scaled left factor `u o r * s r`. The inputs being
  real (the precondition), and a concatenation of real arrays being real, the factored layer there is the materialised
  one (`Cert.Siva.factoredRowAt_eq_linearAt`).
-/
import proofs.«146519_j53523882443032_1_alg».proof.Proof.Gen.KernelIdeal.Frame
import Idealize.ShloMosaic.Lib.StableHlo.Run
import proofs.«146519_j53523882443032_1_alg».proof.Proof.SivaBlocks
import proofs.«146519_j53523882443032_1_alg».proof.Proof.SivaEntry
import proofs.«146519_j53523882443032_1_alg».proof.Proof.SivaRealInputs
import proofs.«146519_j53523882443032_1_alg».proof.Proof.LibFiniteDecode

noncomputable section

namespace Cert.Siva

open Idealize.ShloMosaic Idealize.ShloMosaic.TcCoe Idealize.SL.Sem Idealize.ShloMosaic.ValueIdx Idealize.ShloMosaic.StableHlo
open Cert.KernelIdeal Cert.KernelIdeal.Gen Cert.Lib

variable (m : (ℓ : Loc nD τ sig) → Buf (Elt Ideal) ℓ) (ρ : Dev nD → PrngReg)

/-- The layer of the launch contents: the activations, the concatenated left factor, the diagonal, the concatenated
    right factor and the bias. -/
abbrev layerOut (c : Dev nD) : S4x2048x4096.Idx → EReal :=
  linear (m ((c : Thread nD τ).loc main_arg0) : S4x2048x4096.Idx → EReal) (leftFactor m c)
    (m ((c : Thread nD τ).loc main_arg3) : S1024.Idx → EReal) (rightFactor m c)
    (m ((c : Thread nD τ).loc main_arg6) : S4096.Idx → EReal)

/-- What the host's last line leaves in the result: the region's output rows reshaped. -/
theorem tail_result (c : Dev nD) :
    (Pipeline.afterTail₀ cfgs (dats m) 0 (V0 m) [hostOps1] c main_v9 : S4x2048x4096.Idx → EReal)
      = shapeCast S4x2048x4096 (regionOut m c) shapeCasts_S8192x4096_S4x2048x4096 := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = regionOut m c :=
    (Pipeline.withArrays_arr spec0 launch0.win.arr_inj c _ _ 4).trans (region_final m c)
  rw [hw]
  rfl

/-- The reshaped region output is the layer of the launch contents, when the inputs hold real numbers. -/
theorem reshaped_eq_layer [Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    shapeCast S4x2048x4096 (regionOut m c) shapeCasts_S8192x4096_S4x2048x4096 = layerOut m c := by
  obtain ⟨h0, h1, h2, h3, h4, h5, -⟩ := inputs_real _ _ _ _ _ _ _ hpre
  have hU : ∀ i, IsRealVal (leftFactor m c i) := fun i =>
    concatenate_forall IsRealVal _ _ _ _ (fun p hp z => by
      simp only [List.mem_cons, List.mem_nil_iff, or_false] at hp
      rcases hp with rfl | rfl
      · exact h1 z
      · exact h2 z) i
  have hV : ∀ i, IsRealVal (rightFactor m c i) := fun i =>
    concatenate_forall IsRealVal _ _ _ _ (fun p hp z => by
      simp only [List.mem_cons, List.mem_nil_iff, or_false] at hp
      rcases hp with rfl | rfl
      · exact h4 z
      · exact h5 z) i
  funext i
  obtain ⟨b, q, o, rfl⟩ : ∃ (b : Fin 4) (q : Fin 2048) (o : Fin 4096), i = ix3 b q o := ⟨i 0, i 1, i 2, eq_ix3 i⟩
  have hP : b.val * 2048 + q.val < 8192 := by have := b.isLt; have := q.isLt; omega
  refine (shapeCast_apply (regionOut m c) shapeCasts_S8192x4096_S4x2048x4096 (ix3 b q o)
    (ix2 (⟨b.val * 2048 + q.val, hP⟩ : Fin 8192) o) (by
      rw [Shape.rowMajor_val_two, Shape.rowMajor_val_three]
      rfl)).trans ?_
  show factoredRowAt (V m c main_v0 : S8192x4096.Idx → EReal) (V m c main_v7 : S4096x1024.Idx → EReal)
      (V m c main_v2 : S1024x4096.Idx → EReal) (V m c main_arg6 : S4096.Idx → EReal) ⟨b.val * 2048 + q.val, hP⟩ o
    = linearAt (m ((c : Thread nD τ).loc main_arg0) : S4x2048x4096.Idx → EReal) (leftFactor m c)
      (m ((c : Thread nD τ).loc main_arg3) : S1024.Idx → EReal) (rightFactor m c)
      (m ((c : Thread nD τ).loc main_arg6) : S4096.Idx → EReal) b q o
  rw [entry_right, V_main_arg6]
  exact factoredRowAt_eq_linearAt _ _ (leftFactor m c) _ _ _ _ h0 hU h3 hV b q o ⟨b.val * 2048 + q.val, hP⟩
    (fun k => entry_rows_apply m c b q _ rfl k) (fun r => entry_left_apply m c o r)

/-- The kernel program's run, read: the result at the layer of the launch contents, the arguments unchanged — under
    the precondition. -/
theorem kernel_run [Cert.Pre_finite_inputs.Facts]
    (hpre : ∀ c : Dev nD, Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    θ_run defs (onTc (τ := τ) (main (F := Ideal))) ⟨m, fun _ => 0, ρ⟩ (fun r => ∀ c : Dev nD,
      r.2.mem ((c : Thread nD τ).loc main_v9) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  exact (θ_run defs _ _).mono (fun r h c =>
    ⟨((h c).2 main_v9 (Pipeline.mem_restRefs_of main_v9 (by decide) (by decide))).trans
        ((tail_result m c).trans (reshaped_eq_layer m c (hpre c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c)))⟩)
    (run_main m ρ)

end Cert.Siva

end
-- ==== Proof.lean ====
/-
  A low-rank linear layer, `out = x · ((U · diag s) · V)ᵀ + bias`, computed two ways.

  The reference materialises the weight `W = (U · diag s) · V` (a `[4096, 4096]` matrix) and contracts the activations
  with it. The kernel never forms `W`: on blocks of 256 flattened rows it first projects the activations through the
  right factor, `y = x · Vᵀ`, and then weights by the scaled left factor, `out = y · (U · diag s)ᵀ + bias`. Over the
  extended reals the two agree entry by entry,

      ∑ r, (∑ k, x k * V r k) * (U o r * s r)  =  ∑ k, x k * ∑ r, (U o r * s r) * V r k,

  by distributivity and an exchange of the two finite sums — laws that hold of real numbers and fail at the
  infinities, so the proof uses the precondition (every float input finite) to know that the activations, both
  factors and the diagonal hold real numbers. The bias is added on both sides and may be anything.

  The modules: the law on the extended reals (`LibFactoredContract`); the layer in its two spellings and their
  agreement on real operands (`SivaSpec`); the precondition read back and carried through a concatenation
  (`LibFiniteDecode`, `SivaRealInputs`); the reference's stages read at an index (`SivaReference`); the kernel body's
  stored value at an index (`LibRowsDot`, `SivaBody`), the arrays the region finds (`SivaEntry`), the output array
  from the 32 written-back blocks (`SivaBlocks`) and the reshaped result (`SivaKernelRun`). The word-level kernel
  and the idealized one differ by no rewrite, so the idealization claim is trivial; the three frames are the
  generated ones (the reference's is its generated run with the result dropped).
-/
import proofs.«146519_j53523882443032_1_alg».proof.Defs
import proofs.«146519_j53523882443032_1_alg».proof.Proof.Gen.Kernel
import proofs.«146519_j53523882443032_1_alg».proof.Proof.Gen.Kernel.Skeleton
import proofs.«146519_j53523882443032_1_alg».proof.Proof.Gen.Kernel.Launch
import proofs.«146519_j53523882443032_1_alg».proof.Proof.Gen.Kernel.Points
import proofs.«146519_j53523882443032_1_alg».proof.Proof.Gen.Kernel.Frame
import proofs.«146519_j53523882443032_1_alg».proof.Proof.Gen.KernelIdeal
import proofs.«146519_j53523882443032_1_alg».proof.Proof.Gen.KernelIdeal.Skeleton
import proofs.«146519_j53523882443032_1_alg».proof.Proof.Gen.KernelIdeal.Launch
import proofs.«146519_j53523882443032_1_alg».proof.Proof.Gen.KernelIdeal.Points
import proofs.«146519_j53523882443032_1_alg».proof.Proof.Gen.KernelIdeal.Frame
import proofs.«146519_j53523882443032_1_alg».proof.Proof.Gen.ReferenceIdeal
import proofs.«146519_j53523882443032_1_alg».proof.Proof.Gen.Pre_finite_inputs
import proofs.«146519_j53523882443032_1_alg».proof.Proof.Gen.ReferenceIdeal.Run
import proofs.«146519_j53523882443032_1_alg».proof.Proof.Gen.ReferenceIdeal.Read
import proofs.«146519_j53523882443032_1_alg».proof.Proof.SivaReference
import proofs.«146519_j53523882443032_1_alg».proof.Proof.SivaKernelRun
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, of which the precondition holds, the idealized kernel and the reference
    both end with the layer `Cert.Siva.linear` of the arguments in their result. -/
theorem algebraic : Cert.algebraic_KernelIdeal_ReferenceIdeal := by
  intro m ρ m' ρ' hpre hagree
  refine ⟨fun c => Cert.Siva.layerOut m c, Cert.Siva.kernel_run m ρ hpre, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v9_eq, Cert.Siva.reference_eq_linear, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
